-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S128x1 .f32) (main_arg14 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x128 .f32) (main_arg12 : FVec F S128 .f32) (main_arg13 : FVec F S128x1 .f32) (main_arg14 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S2000x128 : Shape := ⟨2, ![2000, 128]⟩
abbrev S512x128 : Shape := ⟨2, ![512, 128]⟩
abbrev S100000x1 : Shape := ⟨2, ![100000, 1]⟩
abbrev S1x1 : Shape := ⟨2, ![1, 1]⟩
abbrev S512x1 : Shape := ⟨2, ![512, 1]⟩

abbrev nBuf : Space → Nat
  | .hbm => 58
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S1x128, .f32⟩
  | .hbm, ⟨33, _⟩ => ⟨S1x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1x128, .f32⟩
  | .hbm, ⟨49, _⟩ => ⟨S1x128, .f32⟩
  | .hbm, ⟨50, _⟩ => ⟨S100000x128, .f32⟩
  | .hbm, ⟨51, _⟩ => ⟨S_, .f32⟩
  | .hbm, ⟨52, _⟩ => ⟨S512x128, .f32⟩
  | .hbm, ⟨53, _⟩ => ⟨S100000x1, .i32⟩
  | .hbm, ⟨54, _⟩ => ⟨S512x128, .f32⟩
  | .hbm, ⟨55, _⟩ => ⟨S1x128, .f32⟩
  | .hbm, ⟨56, _⟩ => ⟨S1x1, .f32⟩
  | .hbm, ⟨57, _⟩ => ⟨S512x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S512x128, .f32⟩
  | .local _ .vmem, ⟨21, _⟩ => ⟨S128x128, .f32⟩
  | .local _ .vmem, ⟨22, _⟩ => ⟨S1x128, .f32⟩
  | .local _ .vmem, ⟨23, _⟩ => ⟨S128x1, .f32⟩
  | .local _ .vmem, ⟨24, _⟩ => ⟨S1x1, .f32⟩
  | .local _ .vmem, ⟨25, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S512x128 : S_.BroadcastsInDim S512x128 (![] : Fin 0 → Fin S512x128.rank)
  bcast_S100000_S100000x1_0 : S100000.BroadcastsInDim S100000x1 (![0] : Fin 1 → Fin S100000x1.rank)
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x1.size a ≤ S512x1.size a
  hwx2_5 : ∀ i : grid2.Coords, EltTy.bits .f32 = 32 ∨ (Rect.block (s := S512x1) S512x1.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v32) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S512x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S512x128 : Shape := ⟨2, ![512, 128]⟩
abbrev S100000x1 : Shape := ⟨2, ![100000, 1]⟩
abbrev S512x1 : Shape := ⟨2, ![512, 1]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S512x128, .f32⟩
  | .hbm, ⟨77, _⟩ => ⟨S100000x1, .i32⟩
  | .hbm, ⟨78, _⟩ => ⟨S512x128, .f32⟩
  | .hbm, ⟨79, _⟩ => ⟨S512x128, .f32⟩
  | .hbm, ⟨80, _⟩ => ⟨S1x128, .f32⟩
  | .hbm, ⟨81, _⟩ => ⟨S512x128, .f32⟩
  | .hbm, ⟨82, _⟩ => ⟨S512x128, .f32⟩
  | .hbm, ⟨83, _⟩ => ⟨S_, .f32⟩
  | .hbm, ⟨84, _⟩ => ⟨S512x128, .f32⟩
  | .hbm, ⟨85, _⟩ => ⟨S512x128, .f32⟩
  | .hbm, ⟨86, _⟩ => ⟨S512x1, .f32⟩
  | .hbm, ⟨87, _⟩ => ⟨S1x1, .f32⟩
  | .hbm, ⟨88, _⟩ => ⟨S512x1, .f32⟩
  | .hbm, ⟨89, _⟩ => ⟨S512x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_cst : Ref sig .tc := ⟨.hbm, 44, rfl⟩
abbrev main_call1_v0 : Ref sig .tc := ⟨.hbm, 45, rfl⟩
abbrev main_v24 : Ref sig .tc := ⟨.hbm, 46, rfl⟩
abbrev main_c_1 : Ref sig .tc := ⟨.hbm, 47, rfl⟩
abbrev main_v25 : Ref sig .tc := ⟨.hbm, 48, rfl⟩
abbrev main_v26 : Ref sig .tc := ⟨.hbm, 49, rfl⟩
abbrev main_c_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call2_cst : Ref sig .tc := ⟨.hbm, 65, rfl⟩
abbrev main_call2_v0 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call3_cst : Ref sig .tc := ⟨.hbm, 72, rfl⟩
abbrev main_call3_v0 : Ref sig .tc := ⟨.hbm, 73, rfl⟩
abbrev main_v45 : Ref sig .tc := ⟨.hbm, 74, rfl⟩
abbrev main_cst_4 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call4_cst : Ref sig .tc := ⟨.hbm, 83, rfl⟩
abbrev main_call4_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.LibDenseLayer.lean ====
/-
  One dense layer and one rectifier over the extended reals, in the kernel's spelling and in the host's.

  A dense layer sends a matrix h [M, K], a weight w [K, N] and a bias b [N] to the matrix whose entry (r, c) is
  ∑ₖ h(r, k) · w(k, c) + b(c); the rectifier takes the larger of an entry and zero. The kernel spells the layer as
  a matrix product accumulated from zero, of operands passed through a change of float format (the identity on
  the extended reals), plus the bias laid out as a row [1, N] and repeated down the rows. The host spells it as
  `dot_general` plus the bias sent to a row [1, N] and from there to every row. Both are the same function of
  (h, w, b), entry by entry: no sum is reordered and no factor is moved, so no entry need be finite.
  Entry (r, c) of a layer depends on row r of h alone, so a block of consecutive rows of the layer of a long matrix
  is the layer of that block of rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«148745_j63256278336098_1_alg».proof.Proof.LibPlainDot

noncomputable section

namespace Cert.LibDenseLayer

open Idealize.ShloMosaic Idealize.ShloMosaic.ValueIdx

variable {M K N : Nat}

/-- The dense layer: entry (r, c) is ∑ₖ h(r, k) · w(k, c) + b(c). -/
def affine (h : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, h (ix2 (i 0) k) * w (ix2 k (i 1))) + b (ix1 (i 1))

/-- The rectifier: the larger of an entry and zero (the zero kept as its float word). -/
def relu {s : Shape} (v : FVec Ideal s .f32) : FVec Ideal s .f32 :=
  fun i => max (v i) (Ideal.ofBits .f32 0x00000000#32)

/-- The kernel's layer: a product accumulated from zero plus a bias row repeated down the rows, the row holding the
    bias vector (`hrow`). -/
theorem matmul_bias (wf : DotDims.WF (⟨2, ![M, K]⟩ : Shape) ⟨2, ![K, N]⟩ ⟨2, ![M, N]⟩ [1] [0] [0] [1] [] [])
    (lt : FTy.bits .bf16 < FTy.bits .f32) (hb : (⟨2, ![1, N]⟩ : Shape).Broadcasts ⟨2, ![M, N]⟩)
    (h : FVec Ideal ⟨2, ![M, K]⟩ .f32) (w : FVec Ideal ⟨2, ![K, N]⟩ .f32)
    (row : FVec Ideal ⟨2, ![1, N]⟩ .f32) (b : FVec Ideal ⟨1, ![N]⟩ .f32)
    (hrow : ∀ c : Fin N, row (ix2 (0 : Fin 1) c) = b (ix1 c)) :
    addf (FloatOps.matmul (LibPlainDot.dims wf) none (truncf .bf16 h lt) (truncf .bf16 w lt)
        (constant ⟨2, ![M, N]⟩ .f32 0x00000000#32)) (broadcastTo ⟨2, ![M, N]⟩ row hb) = affine h w b := by
  funext i
  obtain ⟨r, c, rfl⟩ : ∃ (r : Fin M) (c : Fin N), i = ix2 r c := ⟨i 0, i 1, eq_ix2 i⟩
  rw [addf_apply, LibPlainDot.matmul_zero_apply, broadcastTo_1b_ab_apply, hrow]
  rfl

/-- The host's layer: `dot_general` plus the bias vector sent to a row and from the row to every row. -/
theorem dot_bias (wf : DotDims.WF (⟨2, ![M, K]⟩ : Shape) ⟨2, ![K, N]⟩ ⟨2, ![M, N]⟩ [1] [0] [0] [1] [] [])
    (h1 : (⟨1, ![N]⟩ : Shape).BroadcastsInDim ⟨2, ![1, N]⟩ ![1])
    (h2 : (⟨2, ![1, N]⟩ : Shape).BroadcastsInDim ⟨2, ![M, N]⟩ ![0, 1])
    (h : FVec Ideal ⟨2, ![M, K]⟩ .f32) (w : FVec Ideal ⟨2, ![K, N]⟩ .f32) (b : FVec Ideal ⟨1, ![N]⟩ .f32) :
    addf (Host.dotGeneral (LibPlainDot.dims wf) none h w)
        (broadcastInDim ⟨2, ![M, N]⟩ ![0, 1] h2 (broadcastInDim ⟨2, ![1, N]⟩ ![1] h1 b)) = affine h w b := by
  funext i
  obtain ⟨r, c, rfl⟩ : ∃ (r : Fin M) (c : Fin N), i = ix2 r c := ⟨i 0, i 1, eq_ix2 i⟩
  rw [addf_apply]
  show FloatOps.dotGeneral (LibPlainDot.dims wf) none .single h w (ix2 r c) + _ = _
  rw [LibPlainDot.dotGeneral_apply]
  have e2 : broadcastInDim ⟨2, ![M, N]⟩ ![0, 1] h2 (broadcastInDim ⟨2, ![1, N]⟩ ![1] h1 b) (ix2 r c)
      = broadcastInDim ⟨2, ![1, N]⟩ ![1] h1 b (ix2 (0 : Fin 1) c) :=
    broadcastInDim_apply _ h2 _ (ix2 r c) (ix2 (0 : Fin 1) c) (fun a => by
      match a with
      | ⟨0, _⟩ => rfl
      | ⟨1, _⟩ =>
        show c.val = if N = 1 then 0 else c.val
        have := c.isLt
        split <;> omega)
  have e1 : broadcastInDim ⟨2, ![1, N]⟩ ![1] h1 b (ix2 (0 : Fin 1) c) = b (ix1 c) :=
    broadcastInDim_apply _ h1 b (ix2 (0 : Fin 1) c) (ix1 c) (fun a => by
      match a with
      | ⟨0, _⟩ =>
        show c.val = if N = 1 then 0 else c.val
        have := c.isLt
        split <;> omega)
  rw [e2, e1]
  rfl

/-- The kernel's rectifier: the maximum with a scalar zero repeated over the block. -/
theorem max_splat {s : Shape} (v : FVec Ideal s .f32) :
    maximumf v (broadcast s (Scalar.ofBits (F := Ideal) .f32 0x00000000#32)) = relu v := rfl

/-- The host's rectifier: the maximum with a scalar zero constant sent to every entry. -/
theorem max_bcast {s : Shape} (hb : (⟨0, ![]⟩ : Shape).BroadcastsInDim s ![]) (v : FVec Ideal s .f32) :
    maximumf v (broadcastInDim s ![] hb (constant (F := Ideal) ⟨0, ![]⟩ .f32 0x00000000#32)) = relu v := by
  funext i
  rw [maximumf_apply, broadcastInDim_apply _ hb _ i ix0 (fun a => a.elim0)]
  rfl

/-- ROW BLOCKS of a layer: entry (off + p, c) of the layer of a long matrix is entry (p, c) of the layer of the block
    of its rows off … off + B. -/
theorem affine_rows {B off : Nat} (hB : off + B ≤ M)
    (H : FVec Ideal ⟨2, ![M, K]⟩ .f32) (h : FVec Ideal ⟨2, ![B, K]⟩ .f32)
    (w : FVec Ideal ⟨2, ![K, N]⟩ .f32) (b : FVec Ideal ⟨1, ![N]⟩ .f32) (p : Fin B) (c : Fin N)
    (hrows : ∀ k : Fin K, h (ix2 p k) = H (ix2 ⟨off + p.val, by have := p.isLt; omega⟩ k)) :
    affine H w b (ix2 ⟨off + p.val, by have := p.isLt; omega⟩ c) = affine h w b (ix2 p c) := by
  show (∑ k : Fin K, H (ix2 ⟨off + p.val, by have := p.isLt; omega⟩ k) * w (ix2 k c)) + b (ix1 c)
    = (∑ k : Fin K, h (ix2 p k) * w (ix2 k c)) + b (ix1 c)
  exact congrArg (· + b (ix1 c)) (Finset.sum_congr rfl fun k _ => by rw [hrows k])

/-- ROW BLOCKS of a convolution's dense stack: entry (off + p, q) of relu(relu((X + A) · w₁ + b₁) · w₂ + b₂) over the
    long matrices is entry (p, q) of the same stack over the blocks x, a of their rows off … off + B: each layer reads
    row off + p of its operand alone, and that row of X + A is row p of x + a. -/
theorem stack_rows {B off : Nat} (hB : off + B ≤ M)
    (X A : FVec Ideal ⟨2, ![M, K]⟩ .f32) (x a : FVec Ideal ⟨2, ![B, K]⟩ .f32)
    (w1 : FVec Ideal ⟨2, ![K, N]⟩ .f32) (b1 : FVec Ideal ⟨1, ![N]⟩ .f32)
    (w2 : FVec Ideal ⟨2, ![N, N]⟩ .f32) (b2 : FVec Ideal ⟨1, ![N]⟩ .f32) (p : Fin B) (q : Fin N)
    (hx : ∀ k : Fin K, x (ix2 p k) = X (ix2 ⟨off + p.val, by have := p.isLt; omega⟩ k))
    (ha : ∀ k : Fin K, a (ix2 p k) = A (ix2 ⟨off + p.val, by have := p.isLt; omega⟩ k)) :
    relu (affine (relu (affine (addf X A) w1 b1)) w2 b2) (ix2 ⟨off + p.val, by have := p.isLt; omega⟩ q)
      = relu (affine (relu (affine (addf x a) w1 b1)) w2 b2) (ix2 p q) := by
  show max (affine (relu (affine (addf X A) w1 b1)) w2 b2 (ix2 ⟨off + p.val, by have := p.isLt; omega⟩ q)) _
    = max (affine (relu (affine (addf x a) w1 b1)) w2 b2 (ix2 p q)) _
  refine congrArg (max · _) (affine_rows hB _ _ w2 b2 p q fun k => ?_)
  show max (affine (addf x a) w1 b1 (ix2 p k)) _ = max (affine (addf X A) w1 b1 (ix2 ⟨off + p.val, by have := p.isLt; omega⟩ k)) _
  refine congrArg (max · _) (affine_rows hB _ _ w1 b1 p k fun j => ?_).symm
  show x (ix2 p j) + a (ix2 p j) = X (ix2 ⟨off + p.val, by have := p.isLt; omega⟩ j) + A (ix2 ⟨off + p.val, by have := p.isLt; omega⟩ j)
  rw [hx j, ha j]

end Cert.LibDenseLayer

end
-- ==== Proof.GinSpec.lean ====
/-
  The network the reference computes, named piece by piece, and its two dense stacks as layers.

  A graph-isomorphism network on a graph of 100000 nodes and 1600000 edges: the edge list holds a row of source
  node ids and a row of target node ids. One convolution adds to every node's feature row the sum of its in-neighbours'
  rows (the rows of h at the sources, with jnp's reading of a negative id, gathered and then added up at the targets) and
  sends the result through two rectified dense layers. Two convolutions, a sum of the node rows into 512 graphs by the
  graph id of each node, then one rectified dense layer and one dense layer with a single output column.
  Every piece below is the reference program's own host operation, applied to a named operand; the gather and the two
  scatter-adds are never opened: the kernel's program applies the same operations to the same operands.
-/
import proofs.«148745_j63256278336098_1_alg».proof.Proof.Gen.ReferenceIdeal.Run
import proofs.«148745_j63256278336098_1_alg».proof.Proof.LibDenseLayer

noncomputable section

namespace Cert.Gin.Spec

open Idealize.ShloMosaic Idealize.ShloMosaic.ValueIdx Cert.ReferenceIdeal Cert.ReferenceIdeal.Gen Cert.Gin Cert.LibDenseLayer

/-- The edge list's row of source node ids, as a vector of words. -/
def sources (ei : IVec S2x1600000 32) : IVec S1600000 32 :=
  shapeCast _ (extractStridedSlice S1x1600000 ![0, 0] ei slices_S2x1600000_S1x1600000_0_0) shapeCasts_S1x1600000_S1600000

/-- Its row of target node ids. -/
def targets (ei : IVec S2x1600000 32) : IVec S1600000 32 :=
  shapeCast _ (extractStridedSlice S1x1600000 ![1, 0] ei slices_S2x1600000_S1x1600000_1_0) shapeCasts_S1x1600000_S1600000

/-- jnp's reading of a negative index: the node count is added to an id below zero. -/
def wrapped (ids : IVec S1600000 32) : IVec S1600000 32 :=
  select (cmpi .slt ids (broadcastInDim S1600000 ![] bcast_S_S1600000 (constantI S_ 32 0#32)))
    (addi ids (broadcastInDim S1600000 ![] bcast_S_S1600000 (constantI S_ 32 100000#32))) ids

/-- A vector of ids as the one-column array the gather and the scatter take. -/
def column (ids : IVec S1600000 32) : IVec S1600000x1 32 :=
  broadcastInDim S1600000x1 ![0] bcast_S1600000_S1600000x1_0 ids

/-- The sum of every node's in-neighbours' rows of h: the rows at the sources, added up at the targets from zero. -/
def neighbourSum (h : FVec Ideal S100000x128 .f32) (ei : IVec S2x1600000 32) : FVec Ideal S100000x128 .f32 :=
  Host.scatterAdd scatter_S100000x128_S1600000x1_S1600000x128_1_0_0_1
    (broadcastInDim S100000x128 ![] bcast_S_S100000x128 (constant S_ .f32 0x00000000#32))
    (column (targets ei))
    (Host.gather gather_S100000x128_S1600000x1_S1600000x128_1_0_n_n_0_1_1128 h (column (wrapped (sources ei))))

/-- One convolution's two rectified dense layers of h + a, in the host's spelling. -/
def conv (h a : FVec Ideal S100000x128 .f32) (w1 : FVec Ideal S128x128 .f32) (b1 : FVec Ideal S128 .f32)
    (w2 : FVec Ideal S128x128 .f32) (b2 : FVec Ideal S128 .f32) : FVec Ideal S100000x128 .f32 :=
  maximumf (addf (Host.dotGeneral dot_S100000x128_S128x128_S100000x128_1_0_0_1_n_n none
      (maximumf (addf (Host.dotGeneral dot_S100000x128_S128x128_S100000x128_1_0_0_1_n_n none (addf h a) w1)
          (broadcastInDim S100000x128 ![0, 1] bcast_S1x128_S100000x128_0_1 (broadcastInDim S1x128 ![1] bcast_S128_S1x128_1 b1)))
        (broadcastInDim S100000x128 ![] bcast_S_S100000x128 (constant S_ .f32 0x00000000#32))) w2)
      (broadcastInDim S100000x128 ![0, 1] bcast_S1x128_S100000x128_0_1 (broadcastInDim S1x128 ![1] bcast_S128_S1x128_1 b2)))
    (broadcastInDim S100000x128 ![] bcast_S_S100000x128 (constant S_ .f32 0x00000000#32))

/-- The node rows added up per graph: row n of h is added to row batch(n), from zero. -/
def pool (h : FVec Ideal S100000x128 .f32) (batch : IVec S100000 32) : FVec Ideal S512x128 .f32 :=
  Host.scatterAdd scatter_S512x128_S100000x1_S100000x128_1_0_0_1
    (broadcastInDim S512x128 ![] bcast_S_S512x128 (constant S_ .f32 0x00000000#32))
    (broadcastInDim S100000x1 ![0] bcast_S100000_S100000x1_0 batch) h

/-- The read-out: a rectified dense layer of the pooled rows, then a dense layer with one output column. -/
def head (g : FVec Ideal S512x128 .f32) (w1 : FVec Ideal S128x128 .f32) (b1 : FVec Ideal S128 .f32)
    (w2 : FVec Ideal S128x1 .f32) (b2 : FVec Ideal S1 .f32) : FVec Ideal S512x1 .f32 :=
  addf (Host.dotGeneral dot_S512x128_S128x1_S512x1_1_0_0_1_n_n none
      (maximumf (addf (Host.dotGeneral dot_S512x128_S128x128_S512x128_1_0_0_1_n_n none g w1)
          (broadcastInDim S512x128 ![0, 1] bcast_S1x128_S512x128_0_1 (broadcastInDim S1x128 ![1] bcast_S128_S1x128_1 b1)))
        (broadcastInDim S512x128 ![] bcast_S_S512x128 (constant S_ .f32 0x00000000#32))) w2)
    (broadcastInDim S512x1 ![0, 1] bcast_S1x1_S512x1_0_1 (broadcastInDim S1x1 ![1] bcast_S1_S1x1_1 b2))

/-- The node features after the first convolution. -/
def hidden1 (x : FVec Ideal S100000x128 .f32) (ei : IVec S2x1600000 32)
    (w1 : FVec Ideal S128x128 .f32) (b1 : FVec Ideal S128 .f32) (w2 : FVec Ideal S128x128 .f32) (b2 : FVec Ideal S128 .f32) :
    FVec Ideal S100000x128 .f32 :=
  conv x (neighbourSum x ei) w1 b1 w2 b2

/-- The whole network: two convolutions, the pooling, the read-out. -/
def network (x : FVec Ideal S100000x128 .f32) (ei : IVec S2x1600000 32) (batch : IVec S100000 32)
    (c1w1 : FVec Ideal S128x128 .f32) (c1b1 : FVec Ideal S128 .f32) (c1w2 : FVec Ideal S128x128 .f32) (c1b2 : FVec Ideal S128 .f32)
    (c2w1 : FVec Ideal S128x128 .f32) (c2b1 : FVec Ideal S128 .f32) (c2w2 : FVec Ideal S128x128 .f32) (c2b2 : FVec Ideal S128 .f32)
    (l1w : FVec Ideal S128x128 .f32) (l1b : FVec Ideal S128 .f32) (l2w : FVec Ideal S128x1 .f32) (l2b : FVec Ideal S1 .f32) :
    FVec Ideal S512x1 .f32 :=
  head (pool (conv (hidden1 x ei c1w1 c1b1 c1w2 c1b2) (neighbourSum (hidden1 x ei c1w1 c1b1 c1w2 c1b2) ei) c2w1 c2b1 c2w2 c2b2) batch)
    l1w l1b l2w l2b

/-- The host's products contract the left operand's columns with the right operand's rows. -/
theorem dims_nodes : dot_S100000x128_S128x128_S100000x128_1_0_0_1_n_n
    = LibPlainDot.dims Cert.ReferenceIdeal.Facts₀.dot_S100000x128_S128x128_S100000x128_1_0_0_1_n_n_wf := rfl
theorem dims_pool : dot_S512x128_S128x128_S512x128_1_0_0_1_n_n
    = LibPlainDot.dims Cert.ReferenceIdeal.Facts₀.dot_S512x128_S128x128_S512x128_1_0_0_1_n_n_wf := rfl
theorem dims_out : dot_S512x128_S128x1_S512x1_1_0_0_1_n_n
    = LibPlainDot.dims Cert.ReferenceIdeal.Facts₀.dot_S512x128_S128x1_S512x1_1_0_0_1_n_n_wf := rfl

/-- A convolution's dense stack is two rectified layers of h + a. -/
theorem conv_eq (h a : FVec Ideal S100000x128 .f32) (w1 : FVec Ideal S128x128 .f32) (b1 : FVec Ideal S128 .f32)
    (w2 : FVec Ideal S128x128 .f32) (b2 : FVec Ideal S128 .f32) :
    conv h a w1 b1 w2 b2 = relu (affine (relu (affine (addf h a) w1 b1)) w2 b2) := by
  unfold conv
  rw [dims_nodes]
  rw [dot_bias, max_bcast, dot_bias, max_bcast]

/-- The read-out is a rectified layer followed by a layer. -/
theorem head_eq (g : FVec Ideal S512x128 .f32) (w1 : FVec Ideal S128x128 .f32) (b1 : FVec Ideal S128 .f32)
    (w2 : FVec Ideal S128x1 .f32) (b2 : FVec Ideal S1 .f32) :
    head g w1 b1 w2 b2 = affine (relu (affine g w1 b1)) w2 b2 := by
  unfold head
  rw [dims_pool, dims_out]
  rw [dot_bias, max_bcast, dot_bias]

/-- The reference's result, as its run states it, is the network of its arguments. -/
theorem reference_eq (m : (ℓ : Loc nD τ sig) → Buf (Elt Ideal) ℓ) (c : Dev nD) :
    Cert.ReferenceIdeal.Value.res_main_v57 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) := by
  unfold Cert.ReferenceIdeal.Value.res_main_v57 network hidden1 head pool conv neighbourSum column wrapped sources targets
  rfl

end Cert.Gin.Spec

end
-- ==== Proof.KernelRun.lean ====
/-
  The idealized kernel program's run, with its result named.

  The program is three kernel launches among three stretches of host operations. What the device's buffers hold at each
  of the six boundaries is a fold from the launch memory: a stretch of host operations acts as the composition of its
  operations, and a launch leaves each of its arrays at what its grid points' write-backs leave and every other buffer
  alone. Every weakly fair execution terminates, without a fault, with every buffer at the fold's last stage; read at the
  result buffer and at the fifteen arguments, that is the post below: the result holds the last stage's contents of
  the third launch's output array, and each argument is as launched.
-/
import proofs.«148745_j63256278336098_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.RunValue

end
-- ==== Proof.KernelBlocks.lean ====
/-
  What one grid point of each kernel computes, as layers.

  The two convolution kernels hold a block of 2000 rows of the node features x and of the neighbour sums a, the two
  weights whole, and the two biases as rows [1, 128]. The block they store is
  relu(relu((x + a) · w₁ + b₁) · w₂ + b₂): the rectifier of a dense layer of the rectifier of a dense layer of the
  entrywise sum, each product accumulated from zero. The pooling kernel holds the pooled features g [512, 128] whole and
  stores relu(g · w₁ + b₁) · w₂ + b₂, the last layer one column wide. Both are stated over the bias VECTORS, given that
  each bias row holds its vector.
-/
import proofs.«148745_j63256278336098_1_alg».proof.Proof.Gen.KernelIdeal.Skeleton
import proofs.«148745_j63256278336098_1_alg».proof.Proof.LibDenseLayer

noncomputable section

namespace Cert.Gin.Blocks

open Idealize.ShloMosaic Idealize.ShloMosaic.ValueIdx Cert.KernelIdeal Cert.KernelIdeal.Gen Cert.Gin Cert.LibDenseLayer

/-- The kernels' three products all contract the left operand's columns with the right operand's rows. -/
theorem dims_conv : dot_S2000x128_S128x128_S2000x128_1_0_0_1_n_n
    = LibPlainDot.dims Cert.KernelIdeal.Facts₀.dot_S2000x128_S128x128_S2000x128_1_0_0_1_n_n_wf := rfl
theorem dims_pool : dot_S512x128_S128x128_S512x128_1_0_0_1_n_n
    = LibPlainDot.dims Cert.KernelIdeal.Facts₀.dot_S512x128_S128x128_S512x128_1_0_0_1_n_n_wf := rfl
theorem dims_out : dot_S512x128_S128x1_S512x1_1_0_0_1_n_n
    = LibPlainDot.dims Cert.KernelIdeal.Facts₀.dot_S512x128_S128x1_S512x1_1_0_0_1_n_n_wf := rfl

/-- One grid point of the first convolution kernel: two layers of the block's rows. -/
theorem conv0 (x a : Vec Ideal S2000x128 .f32) (w1 : Vec Ideal S128x128 .f32) (r1 : Vec Ideal S1x128 .f32)
    (w2 : Vec Ideal S128x128 .f32) (r2 : Vec Ideal S1x128 .f32) (b1 b2 : FVec Ideal S128 .f32)
    (h1 : ∀ c : Fin 128, r1 (ix2 (0 : Fin 1) c) = b1 (ix1 c)) (h2 : ∀ c : Fin 128, r2 (ix2 (0 : Fin 1) c) = b2 (ix1 c)) :
    k0_pay1 (F := Ideal) x a w1 r1 w2 r2 = relu (affine (relu (affine (addf x a) w1 b1)) w2 b2) := by
  unfold k0_pay1
  simp only [shapeCast_self]
  rw [dims_conv]
  rw [matmul_bias _ _ _ _ _ r1 b1 h1, max_splat, matmul_bias _ _ _ _ _ r2 b2 h2, max_splat]

/-- One grid point of the second convolution kernel: the same two layers. -/
theorem conv1 (x a : Vec Ideal S2000x128 .f32) (w1 : Vec Ideal S128x128 .f32) (r1 : Vec Ideal S1x128 .f32)
    (w2 : Vec Ideal S128x128 .f32) (r2 : Vec Ideal S1x128 .f32) (b1 b2 : FVec Ideal S128 .f32)
    (h1 : ∀ c : Fin 128, r1 (ix2 (0 : Fin 1) c) = b1 (ix1 c)) (h2 : ∀ c : Fin 128, r2 (ix2 (0 : Fin 1) c) = b2 (ix1 c)) :
    k1_pay1 (F := Ideal) x a w1 r1 w2 r2 = relu (affine (relu (affine (addf x a) w1 b1)) w2 b2) := by
  unfold k1_pay1
  simp only [shapeCast_self]
  rw [dims_conv]
  rw [matmul_bias _ _ _ _ _ r1 b1 h1, max_splat, matmul_bias _ _ _ _ _ r2 b2 h2, max_splat]

/-- The pooling kernel's one grid point: a rectified layer, then a layer one column wide. -/
theorem head (g : Vec Ideal S512x128 .f32) (w1 : Vec Ideal S128x128 .f32) (r1 : Vec Ideal S1x128 .f32)
    (w2 : Vec Ideal S128x1 .f32) (r2 : Vec Ideal S1x1 .f32) (b1 : FVec Ideal S128 .f32) (b2 : FVec Ideal S1 .f32)
    (h1 : ∀ c : Fin 128, r1 (ix2 (0 : Fin 1) c) = b1 (ix1 c)) (h2 : ∀ c : Fin 1, r2 (ix2 (0 : Fin 1) c) = b2 (ix1 c)) :
    k2_pay1 (F := Ideal) g w1 r1 w2 r2 = affine (relu (affine g w1 b1)) w2 b2 := by
  unfold k2_pay1
  simp only [shapeCast_self]
  rw [dims_pool, dims_out]
  rw [matmul_bias _ _ _ _ _ r1 b1 h1, max_splat, matmul_bias _ _ _ _ _ r2 b2 h2]

end Cert.Gin.Blocks

end
-- ==== Proof.Region0.lean ====
/-
  What the first convolution kernel leaves in its output array.

  The kernel's grid has 50 points. Point t holds rows 2000·t … 2000·t + 2000 of the node features and of the neighbour
  sums, the two weights whole and the two bias rows whole, and writes back rows 2000·t … 2000·t + 2000 of the output. What
  it writes is the two-layer stack of ITS rows; a layer's entry (r, c) reads row r of its operand alone, so those are
  rows 2000·t … of the stack of the whole arrays. The 50 blocks of rows tile the 100000 rows (row R is in block R / 2000),
  so after the launch the output array holds relu(relu((x + a) · w₁ + b₁) · w₂ + b₂) of the arrays the launch found.
-/
import proofs.«148745_j63256278336098_1_alg».proof.Proof.Gen.KernelIdeal.Frame
import proofs.«148745_j63256278336098_1_alg».proof.Proof.KernelBlocks

set_option maxRecDepth 16384

noncomputable section

namespace Cert.Gin.Region0

open Idealize.ShloMosaic Idealize.ShloMosaic.TcCoe Idealize.ShloMosaic.ValueIdx Idealize.SL.Sem
open Cert.KernelIdeal Cert.KernelIdeal.Gen Cert.Gin Cert.LibDenseLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The grid has 50 points. -/
theorem lt50 (t : Fin cfg0.N) : t.val < 50 := lt_of_lt_of_eq t.isLt N_0

/-- The printed index maps over the grid: the three row-tiled windows sit at block (t, 0), the four others at (0, 0). -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of point t's block of the node features is row 2000·t + p of the array. -/
theorem blk0 (c : Dev nD) (t : Fin cfg0.N) (p : Fin 2000) (k : Fin 128) :
    iblk0 V c 0 t (ix2 p k)
      = V c main_arg0 (ix2 ⟨2000 * t.val + p.val, by have := lt50 t; have := p.isLt; omega⟩ k) := by
  obtain ⟨e0, e1, -⟩ := idx t
  show V c main_arg0 (((cfg0.win 0).blk t).view.emb (ix2 p k)) = _
  refine congrArg (V c main_arg0) (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * k.val = k.val; omega

/-- The same for the neighbour sums. -/
theorem blk1 (c : Dev nD) (t : Fin cfg0.N) (p : Fin 2000) (k : Fin 128) :
    iblk0 V c 1 t (ix2 p k)
      = V c main_v13 (ix2 ⟨2000 * t.val + p.val, by have := lt50 t; have := p.isLt; omega⟩ k) := by
  obtain ⟨-, -, e0, e1, -⟩ := idx t
  show V c main_v13 (((cfg0.win 1).blk t).view.emb (ix2 p k)) = _
  refine congrArg (V c main_v13) (funext fun a => Fin.ext ?_)
  match a with
  | ⟨0, _⟩ => show win0_1.index t (0 : Fin 2) * 2000 + 1 * p.val = 2000 * t.val + p.val; omega
  | ⟨1, _⟩ => show win0_1.index t (1 : Fin 2) * 128 + 1 * k.val = k.val; omega

/-- Every point's block of the first weight is the whole weight. -/
theorem whole2 (c : Dev nD) (t : Fin cfg0.N) : (iblk0 V c 2 t : S128x128.Idx → EReal) = V c main_arg3 := by
  obtain ⟨-, -, -, -, e0, e1, -⟩ := idx t
  funext y
  show V c main_arg3 (((cfg0.win 2).blk t).view.emb y) = V c main_arg3 y
  refine congrArg (V c main_arg3) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- … of the first bias row the whole row. -/
theorem whole3 (c : Dev nD) (t : Fin cfg0.N) : (iblk0 V c 3 t : S1x128.Idx → EReal) = V c main_v14 := by
  obtain ⟨-, -, -, -, -, -, e0, e1, -⟩ := idx t
  funext y
  show V c main_v14 (((cfg0.win 3).blk t).view.emb y) = V c main_v14 y
  refine congrArg (V c main_v14) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- … of the second weight the whole weight. -/
theorem whole4 (c : Dev nD) (t : Fin cfg0.N) : (iblk0 V c 4 t : S128x128.Idx → EReal) = V c main_arg5 := by
  obtain ⟨-, -, -, -, -, -, -, -, e0, e1, -⟩ := idx t
  funext y
  show V c main_arg5 (((cfg0.win 4).blk t).view.emb y) = V c main_arg5 y
  refine congrArg (V c main_arg5) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- … of the second bias row the whole row. -/
theorem whole5 (c : Dev nD) (t : Fin cfg0.N) : (iblk0 V c 5 t : S1x128.Idx → EReal) = V c main_v15 := by
  obtain ⟨-, -, -, -, -, -, -, -, -, -, e0, e1, -⟩ := idx t
  funext y
  show V c main_v15 (((cfg0.win 5).blk t).view.emb y) = V c main_v15 y
  refine congrArg (V c main_v15) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Entry (p, q) of point t's output block is entry (2000·t + p, q) of the output array. -/
theorem emb6 (t : Fin cfg0.N) (p : Fin 2000) (q : Fin 128) :
    ((cfg0.win 6).blk t).view.emb (ix2 p q)
      = (ix2 ⟨2000 * t.val + p.val, by have := lt50 t; have := p.isLt; omega⟩ q : S100000x128.Idx) := by
  obtain ⟨-, -, -, -, -, -, -, -, -, -, -, -, e0, e1⟩ := idx t
  refine funext fun a => Fin.ext ?_
  match a with
  | ⟨0, _⟩ => show win0_6.index t (0 : Fin 2) * 2000 + 1 * p.val = 2000 * t.val + p.val; omega
  | ⟨1, _⟩ => show win0_6.index t (1 : Fin 2) * 128 + 1 * q.val = q.val; omega

/-- An index of the output array is in point t's block iff each coordinate is in the block's range on its axis. -/
theorem mem_blk (t : Fin cfg0.N) (i : S100000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v16).slice (win0_6.rect t)).set ↔ _
  rw [View.set_slice_whole, Rect.mem_set_unit]
  exact Iff.rfl

/-- The blocks of rows tile the array: row R is in the block of point R / 2000. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have ht : (i 0).val / 2000 < cfg0.N := lt_of_lt_of_eq (by omega : (i 0).val / 2000 < 50) N_0.symm
  refine ⟨⟨(i 0).val / 2000, ht⟩, flush0_6 _, ?_⟩
  obtain ⟨-, -, -, -, -, -, -, -, -, -, -, -, e0, e1⟩ := idx ⟨(i 0).val / 2000, ht⟩
  rw [mem_blk]
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, ht⟩ (1 : Fin 2) * 128 ≤ (i 1).val
      ∧ (i 1).val < win0_6.index ⟨(i 0).val / 2000, ht⟩ (1 : Fin 2) * 128 + 128
    rw [e1]; omega

/-- THE OUTPUT ARRAY after the launch: the two-layer stack of the arrays the launch found, the bias rows read as the
    vectors b₁, b₂ they hold. -/
theorem out (c : Dev nD) (b1 b2 : FVec Ideal S128 .f32)
    (h1 : ∀ k : Fin 128, V c main_v14 (ix2 (0 : Fin 1) k) = b1 (ix1 k))
    (h2 : ∀ k : Fin 128, V c main_v15 (ix2 (0 : Fin 1) k) = b2 (ix1 k)) :
    (dat0 V c).arrAt 6 cfg0.N
      = relu (affine (relu (affine (addf (V c main_arg0) (V c main_v13)) (V c main_arg3) b1)) (V c main_arg5) b2) := by
  refine (dat0 V c).arrAt_eq_of_cover 6 _ (fun t _ => ?_) (cover)
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz, View.ld_unit_zero (S := S1x128) hz]
  rw [Blocks.conv0 (iblk0 V c 0 t) (iblk0 V c 1 t) (iblk0 V c 2 t) (iblk0 V c 3 t) (iblk0 V c 4 t) (iblk0 V c 5 t) b1 b2
    (fun k => (congrFun (whole3 V c t) (ix2 (0 : Fin 1) k)).trans (h1 k))
    (fun k => (congrFun (whole5 V c t) (ix2 (0 : Fin 1) k)).trans (h2 k))]
  rw [whole2 V c t, whole4 V c t]
  funext j
  obtain ⟨p, q, rfl⟩ : ∃ (p : Fin 2000) (q : Fin 128), j = ix2 p q := ⟨j 0, j 1, eq_ix2 j⟩
  rw [View.read_apply, emb6 t p q]
  exact (stack_rows (off := 2000 * t.val) (by have := lt50 t; omega) (V c main_arg0) (V c main_v13)
    (iblk0 V c 0 t) (iblk0 V c 1 t) (V c main_arg3) b1 (V c main_arg5) b2 p q (blk0 V c t p) (blk1 V c t p)).symm

end Cert.Gin.Region0

end
-- ==== Proof.Region1.lean ====
/-
  What the second convolution kernel leaves in its output array.

  The kernel's grid has 50 points. Point t holds rows 2000·t … 2000·t + 2000 of the first convolution's output and of its
  neighbour sums, the two weights whole and the two bias rows whole, and writes back rows 2000·t … 2000·t + 2000 of the output. What
  it writes is the two-layer stack of ITS rows; a layer's entry (r, c) reads row r of its operand alone, so those are
  rows 2000·t … of the stack of the whole arrays. The 50 blocks of rows tile the 100000 rows (row R is in block R / 2000),
  so after the launch the output array holds relu(relu((x + a) · w₁ + b₁) · w₂ + b₂) of the arrays the launch found.
-/
import proofs.«148745_j63256278336098_1_alg».proof.Proof.Gen.KernelIdeal.Frame
import proofs.«148745_j63256278336098_1_alg».proof.Proof.KernelBlocks

set_option maxRecDepth 16384

noncomputable section

namespace Cert.Gin.Region1

open Idealize.ShloMosaic Idealize.ShloMosaic.TcCoe Idealize.ShloMosaic.ValueIdx Idealize.SL.Sem
open Cert.KernelIdeal Cert.KernelIdeal.Gen Cert.Gin Cert.LibDenseLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The grid has 50 points. -/
theorem lt50 (t : Fin cfg1.N) : t.val < 50 := lt_of_lt_of_eq t.isLt N_1

/-- The printed index maps over the grid: the three row-tiled windows sit at block (t, 0), the four others at (0, 0). -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of point t's block of the node features is row 2000·t + p of the array. -/
theorem blk0 (c : Dev nD) (t : Fin cfg1.N) (p : Fin 2000) (k : Fin 128) :
    iblk1 V c 0 t (ix2 p k)
      = V c main_v16 (ix2 ⟨2000 * t.val + p.val, by have := lt50 t; have := p.isLt; omega⟩ k) := by
  obtain ⟨e0, e1, -⟩ := idx t
  show V c main_v16 (((cfg1.win 0).blk t).view.emb (ix2 p k)) = _
  refine congrArg (V c main_v16) (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * k.val = k.val; omega

/-- The same for the neighbour sums. -/
theorem blk1 (c : Dev nD) (t : Fin cfg1.N) (p : Fin 2000) (k : Fin 128) :
    iblk1 V c 1 t (ix2 p k)
      = V c main_v26 (ix2 ⟨2000 * t.val + p.val, by have := lt50 t; have := p.isLt; omega⟩ k) := by
  obtain ⟨-, -, e0, e1, -⟩ := idx t
  show V c main_v26 (((cfg1.win 1).blk t).view.emb (ix2 p k)) = _
  refine congrArg (V c main_v26) (funext fun a => Fin.ext ?_)
  match a with
  | ⟨0, _⟩ => show win1_1.index t (0 : Fin 2) * 2000 + 1 * p.val = 2000 * t.val + p.val; omega
  | ⟨1, _⟩ => show win1_1.index t (1 : Fin 2) * 128 + 1 * k.val = k.val; omega

/-- Every point's block of the first weight is the whole weight. -/
theorem whole2 (c : Dev nD) (t : Fin cfg1.N) : (iblk1 V c 2 t : S128x128.Idx → EReal) = V c main_arg7 := by
  obtain ⟨-, -, -, -, e0, e1, -⟩ := idx t
  funext y
  show V c main_arg7 (((cfg1.win 2).blk t).view.emb y) = V c main_arg7 y
  refine congrArg (V c main_arg7) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- … of the first bias row the whole row. -/
theorem whole3 (c : Dev nD) (t : Fin cfg1.N) : (iblk1 V c 3 t : S1x128.Idx → EReal) = V c main_v27 := by
  obtain ⟨-, -, -, -, -, -, e0, e1, -⟩ := idx t
  funext y
  show V c main_v27 (((cfg1.win 3).blk t).view.emb y) = V c main_v27 y
  refine congrArg (V c main_v27) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- … of the second weight the whole weight. -/
theorem whole4 (c : Dev nD) (t : Fin cfg1.N) : (iblk1 V c 4 t : S128x128.Idx → EReal) = V c main_arg9 := by
  obtain ⟨-, -, -, -, -, -, -, -, e0, e1, -⟩ := idx t
  funext y
  show V c main_arg9 (((cfg1.win 4).blk t).view.emb y) = V c main_arg9 y
  refine congrArg (V c main_arg9) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- … of the second bias row the whole row. -/
theorem whole5 (c : Dev nD) (t : Fin cfg1.N) : (iblk1 V c 5 t : S1x128.Idx → EReal) = V c main_v28 := by
  obtain ⟨-, -, -, -, -, -, -, -, -, -, e0, e1, -⟩ := idx t
  funext y
  show V c main_v28 (((cfg1.win 5).blk t).view.emb y) = V c main_v28 y
  refine congrArg (V c main_v28) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Entry (p, q) of point t's output block is entry (2000·t + p, q) of the output array. -/
theorem emb6 (t : Fin cfg1.N) (p : Fin 2000) (q : Fin 128) :
    ((cfg1.win 6).blk t).view.emb (ix2 p q)
      = (ix2 ⟨2000 * t.val + p.val, by have := lt50 t; have := p.isLt; omega⟩ q : S100000x128.Idx) := by
  obtain ⟨-, -, -, -, -, -, -, -, -, -, -, -, e0, e1⟩ := idx t
  refine funext fun a => Fin.ext ?_
  match a with
  | ⟨0, _⟩ => show win1_6.index t (0 : Fin 2) * 2000 + 1 * p.val = 2000 * t.val + p.val; omega
  | ⟨1, _⟩ => show win1_6.index t (1 : Fin 2) * 128 + 1 * q.val = q.val; omega

/-- An index of the output array is in point t's block iff each coordinate is in the block's range on its axis. -/
theorem mem_blk (t : Fin cfg1.N) (i : S100000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v29).slice (win1_6.rect t)).set ↔ _
  rw [View.set_slice_whole, Rect.mem_set_unit]
  exact Iff.rfl

/-- The blocks of rows tile the array: row R is in the block of point R / 2000. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have ht : (i 0).val / 2000 < cfg1.N := lt_of_lt_of_eq (by omega : (i 0).val / 2000 < 50) N_1.symm
  refine ⟨⟨(i 0).val / 2000, ht⟩, flush1_6 _, ?_⟩
  obtain ⟨-, -, -, -, -, -, -, -, -, -, -, -, e0, e1⟩ := idx ⟨(i 0).val / 2000, ht⟩
  rw [mem_blk]
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, ht⟩ (1 : Fin 2) * 128 ≤ (i 1).val
      ∧ (i 1).val < win1_6.index ⟨(i 0).val / 2000, ht⟩ (1 : Fin 2) * 128 + 128
    rw [e1]; omega

/-- THE OUTPUT ARRAY after the launch: the two-layer stack of the arrays the launch found, the bias rows read as the
    vectors b₁, b₂ they hold. -/
theorem out (c : Dev nD) (b1 b2 : FVec Ideal S128 .f32)
    (h1 : ∀ k : Fin 128, V c main_v27 (ix2 (0 : Fin 1) k) = b1 (ix1 k))
    (h2 : ∀ k : Fin 128, V c main_v28 (ix2 (0 : Fin 1) k) = b2 (ix1 k)) :
    (dat1 V c).arrAt 6 cfg1.N
      = relu (affine (relu (affine (addf (V c main_v16) (V c main_v26)) (V c main_arg7) b1)) (V c main_arg9) b2) := by
  refine (dat1 V c).arrAt_eq_of_cover 6 _ (fun t _ => ?_) (cover)
  show (cfg1.win 6).cut (grid1.coords t) ((dat1 V c).after 6 t) = _
  rw [after1_6]
  unfold out1_6
  rw [View.canon_unit_zero hz]
  simp only [View.ld_unit_zero (S := S2000x128) hz, View.ld_unit_zero (S := S128x128) hz, View.ld_unit_zero (S := S1x128) hz]
  rw [Blocks.conv1 (iblk1 V c 0 t) (iblk1 V c 1 t) (iblk1 V c 2 t) (iblk1 V c 3 t) (iblk1 V c 4 t) (iblk1 V c 5 t) b1 b2
    (fun k => (congrFun (whole3 V c t) (ix2 (0 : Fin 1) k)).trans (h1 k))
    (fun k => (congrFun (whole5 V c t) (ix2 (0 : Fin 1) k)).trans (h2 k))]
  rw [whole2 V c t, whole4 V c t]
  funext j
  obtain ⟨p, q, rfl⟩ : ∃ (p : Fin 2000) (q : Fin 128), j = ix2 p q := ⟨j 0, j 1, eq_ix2 j⟩
  rw [View.read_apply, emb6 t p q]
  exact (stack_rows (off := 2000 * t.val) (by have := lt50 t; omega) (V c main_v16) (V c main_v26)
    (iblk1 V c 0 t) (iblk1 V c 1 t) (V c main_arg7) b1 (V c main_arg9) b2 p q (blk0 V c t p) (blk1 V c t p)).symm

end Cert.Gin.Region1

end
-- ==== Proof.Region2.lean ====
/-
  What the pooling kernel leaves in its output array.

  The kernel's grid is one point: it holds the pooled features [512, 128], the two weights and the two bias rows whole, and
  writes the whole output [512, 1] back. So after the launch the output array holds relu(g · w₁ + b₁) · w₂ + b₂ of the
  arrays the launch found.
-/
import proofs.«148745_j63256278336098_1_alg».proof.Proof.Gen.KernelIdeal.Frame
import proofs.«148745_j63256278336098_1_alg».proof.Proof.KernelBlocks

set_option maxRecDepth 16384

noncomputable section

namespace Cert.Gin.Region2

open Idealize.ShloMosaic Idealize.ShloMosaic.TcCoe Idealize.ShloMosaic.ValueIdx Idealize.SL.Sem
open Cert.KernelIdeal Cert.KernelIdeal.Gen Cert.Gin Cert.LibDenseLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps at the grid's one point: every window sits at block (0, 0). -/
theorem idx : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The point's block of the pooled features is the whole array. -/
theorem whole0 (c : Dev nD) (t : Fin cfg2.N) : (iblk2 V c 0 t : S512x128.Idx → EReal) = V c main_v32 := by
  obtain ⟨e0, e1, -⟩ := idx t
  funext y
  show V c main_v32 (((cfg2.win 0).blk t).view.emb y) = V c main_v32 y
  refine congrArg (V c main_v32) (funext fun a => Fin.ext ?_)
  match a with
  | ⟨0, _⟩ => show win2_0.index t (0 : Fin 2) * 512 + 1 * (y 0).val = (y 0).val; omega
  | ⟨1, _⟩ => show win2_0.index t (1 : Fin 2) * 128 + 1 * (y 1).val = (y 1).val; omega

/-- … of the first weight the whole weight. -/
theorem whole1 (c : Dev nD) (t : Fin cfg2.N) : (iblk2 V c 1 t : S128x128.Idx → EReal) = V c main_arg11 := by
  obtain ⟨-, -, e0, e1, -⟩ := idx t
  funext y
  show V c main_arg11 (((cfg2.win 1).blk t).view.emb y) = V c main_arg11 y
  refine congrArg (V c main_arg11) (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- … of the first bias row the whole row. -/
theorem whole2 (c : Dev nD) (t : Fin cfg2.N) : (iblk2 V c 2 t : S1x128.Idx → EReal) = V c main_v33 := by
  obtain ⟨-, -, -, -, e0, e1, -⟩ := idx t
  funext y
  show V c main_v33 (((cfg2.win 2).blk t).view.emb y) = V c main_v33 y
  refine congrArg (V c main_v33) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- … of the second weight the whole one-column weight. -/
theorem whole3 (c : Dev nD) (t : Fin cfg2.N) : (iblk2 V c 3 t : S128x1.Idx → EReal) = V c main_arg13 := by
  obtain ⟨-, -, -, -, -, -, e0, e1, -⟩ := idx t
  funext y
  show V c main_arg13 (((cfg2.win 3).blk t).view.emb y) = V c main_arg13 y
  refine congrArg (V c main_arg13) (funext fun a => Fin.ext ?_)
  match a with
  | ⟨0, _⟩ => show win2_3.index t (0 : Fin 2) * 128 + 1 * (y 0).val = (y 0).val; omega
  | ⟨1, _⟩ => show win2_3.index t (1 : Fin 2) * 1 + 1 * (y 1).val = (y 1).val; omega

/-- … of the second bias row the whole one-entry row. -/
theorem whole4 (c : Dev nD) (t : Fin cfg2.N) : (iblk2 V c 4 t : S1x1.Idx → EReal) = V c main_v34 := by
  obtain ⟨-, -, -, -, -, -, -, -, e0, e1, -⟩ := idx t
  funext y
  show V c main_v34 (((cfg2.win 4).blk t).view.emb y) = V c main_v34 y
  refine congrArg (V c main_v34) (funext fun a => Fin.ext ?_)
  match a with
  | ⟨0, _⟩ => show win2_4.index t (0 : Fin 2) * 1 + 1 * (y 0).val = (y 0).val; omega
  | ⟨1, _⟩ => show win2_4.index t (1 : Fin 2) * 1 + 1 * (y 1).val = (y 1).val; omega

/-- An entry of the point's output block is that entry of the output array. -/
theorem emb5 (t : Fin cfg2.N) (y : S512x1.Idx) : ((cfg2.win 5).blk t).view.emb y = y := by
  obtain ⟨-, -, -, -, -, -, -, -, -, -, e0, e1⟩ := idx t
  refine funext fun a => Fin.ext ?_
  match a with
  | ⟨0, _⟩ => show win2_5.index t (0 : Fin 2) * 512 + 1 * (y 0).val = (y 0).val; omega
  | ⟨1, _⟩ => show win2_5.index t (1 : Fin 2) * 1 + 1 * (y 1).val = (y 1).val; omega

/-- An index of the output array is in the point's block iff each coordinate is in the block's range on its axis. -/
theorem mem_blk (t : Fin cfg2.N) (i : S512x1.Idx) :
    i ∈ ((cfg2.win 5).blk t).view.set ↔ ∀ a : Fin 2, win2_5.index t a * S512x1.size a ≤ (i a).val
      ∧ (i a).val < win2_5.index t a * S512x1.size a + S512x1.size a := by
  show i ∈ ((View.whole main_v35).slice (win2_5.rect t)).set ↔ _
  rw [View.set_slice_whole, Rect.mem_set_unit]
  exact Iff.rfl

/-- The one block is the whole array. -/
theorem cover (i : S512x1.Idx) :
    ∃ t : Fin cfg2.N, (cfg2.win 5).flush t = true ∧ i ∈ ((cfg2.win 5).blk t).view.set := by
  have hi0 : (i 0).val < 512 := (i 0).isLt
  have hi1 : (i 1).val < 1 := (i 1).isLt
  refine ⟨t2_0, flush2_5 _, ?_⟩
  obtain ⟨-, -, -, -, -, -, -, -, -, -, e0, e1⟩ := idx t2_0
  rw [mem_blk]
  intro a
  match a with
  | ⟨0, _⟩ =>
    show win2_5.index t2_0 (0 : Fin 2) * 512 ≤ (i 0).val ∧ (i 0).val < win2_5.index t2_0 (0 : Fin 2) * 512 + 512
    rw [e0]; omega
  | ⟨1, _⟩ =>
    show win2_5.index t2_0 (1 : Fin 2) * 1 ≤ (i 1).val ∧ (i 1).val < win2_5.index t2_0 (1 : Fin 2) * 1 + 1
    rw [e1]; omega

/-- THE OUTPUT ARRAY after the launch: the read-out of the arrays the launch found, the bias rows read as the vectors
    b₁, b₂ they hold. -/
theorem out (c : Dev nD) (b1 : FVec Ideal S128 .f32) (b2 : FVec Ideal S1 .f32)
    (h1 : ∀ k : Fin 128, V c main_v33 (ix2 (0 : Fin 1) k) = b1 (ix1 k))
    (h2 : ∀ k : Fin 1, V c main_v34 (ix2 (0 : Fin 1) k) = b2 (ix1 k)) :
    (dat2 V c).arrAt 5 cfg2.N = affine (relu (affine (V c main_v32) (V c main_arg11) b1)) (V c main_arg13) b2 := by
  refine (dat2 V c).arrAt_eq_of_cover 5 _ (fun t _ => ?_) (cover)
  show (cfg2.win 5).cut (grid2.coords t) ((dat2 V c).after 5 t) = _
  rw [after2_5]
  unfold out2_5
  rw [View.canon_unit_zero hz]
  simp only [View.ld_unit_zero (S := S512x128) hz, View.ld_unit_zero (S := S128x128) hz, View.ld_unit_zero (S := S1x128) hz,
    View.ld_unit_zero (S := S128x1) hz, View.ld_unit_zero (S := S1x1) hz]
  rw [Blocks.head (iblk2 V c 0 t) (iblk2 V c 1 t) (iblk2 V c 2 t) (iblk2 V c 3 t) (iblk2 V c 4 t) b1 b2
    (fun k => (congrFun (whole2 V c t) (ix2 (0 : Fin 1) k)).trans (h1 k))
    (fun k => (congrFun (whole4 V c t) (ix2 (0 : Fin 1) k)).trans (h2 k))]
  rw [whole0 V c t, whole1 V c t, whole3 V c t]
  funext j
  rw [View.read_apply, emb5 t j]
  rfl

end Cert.Gin.Region2

end
-- ==== Proof.HostGlue.lean ====
/-
  What the host operations around the launches leave in the buffers the launches read.

  Before each launch the program computes, on the host, the neighbour sums (or the pooled rows) the launch will read
  and lays the two bias vectors out as rows. Those are the reference's own operations applied to the same operands: the
  edge list's two rows of ids, computed once before the first launch and read again before the second; the gather and
  the scatter-add over them; the reshape of a vector [n] to a row [1, n]. A buffer no operation of a stretch writes holds
  after the stretch what it held before, and a launch changes only its output array.
-/
import proofs.«148745_j63256278336098_1_alg».proof.Proof.Gen.KernelIdeal.Frame
import proofs.«148745_j63256278336098_1_alg».proof.Proof.GinSpec
import Idealize.ShloMosaic.Lib.StableHlo.Run
import Idealize.ShloMosaic.Lib.ValueLayout

set_option maxRecDepth 16384

noncomputable section

namespace Cert.Gin.Glue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## Before the first launch -/

/-- The node features are as launched. -/
theorem pre0_x (c : Dev nD) : V1 m ρ c main_arg0 = m ((c : Thread nD τ).loc main_arg0) := by
  show StableHlo.after hostOps0 (W0 m ρ c) (Proc.devRef .tc main_arg0) = _
  after_results_simp <;> rfl

/-- No operation before the first launch writes an argument: each is as launched. -/
theorem keep0_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem keep0_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem keep0_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem keep0_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem keep0_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem keep0_arg8 (c : Dev nD) : W1 m ρ c (Proc.devRef .tc main_arg8) = m ((c : Thread nD τ).loc main_arg8) := by
  show StableHlo.after hostOps0 (W0 m ρ c) (Proc.devRef .tc main_arg8) = _
  after_results_simp <;> rfl
theorem keep0_arg9 (c : Dev nD) : W1 m ρ c (Proc.devRef .tc main_arg9) = m ((c : Thread nD τ).loc main_arg9) := by
  show StableHlo.after hostOps0 (W0 m ρ c) (Proc.devRef .tc main_arg9) = _
  after_results_simp <;> rfl
theorem keep0_arg10 (c : Dev nD) : W1 m ρ c (Proc.devRef .tc main_arg10) = m ((c : Thread nD τ).loc main_arg10) := by
  show StableHlo.after hostOps0 (W0 m ρ c) (Proc.devRef .tc main_arg10) = _
  after_results_simp <;> rfl
theorem keep0_arg11 (c : Dev nD) : W1 m ρ c (Proc.devRef .tc main_arg11) = m ((c : Thread nD τ).loc main_arg11) := by
  show StableHlo.after hostOps0 (W0 m ρ c) (Proc.devRef .tc main_arg11) = _
  after_results_simp <;> rfl
theorem keep0_arg12 (c : Dev nD) : W1 m ρ c (Proc.devRef .tc main_arg12) = m ((c : Thread nD τ).loc main_arg12) := by
  show StableHlo.after hostOps0 (W0 m ρ c) (Proc.devRef .tc main_arg12) = _
  after_results_simp <;> rfl
theorem keep0_arg13 (c : Dev nD) : W1 m ρ c (Proc.devRef .tc main_arg13) = m ((c : Thread nD τ).loc main_arg13) := by
  show StableHlo.after hostOps0 (W0 m ρ c) (Proc.devRef .tc main_arg13) = _
  after_results_simp <;> rfl
theorem keep0_arg14 (c : Dev nD) : W1 m ρ c (Proc.devRef .tc main_arg14) = m ((c : Thread nD τ).loc main_arg14) := by
  show StableHlo.after hostOps0 (W0 m ρ c) (Proc.devRef .tc main_arg14) = _
  after_results_simp <;> rfl

/-- The first neighbour sums are the reference's, of the node features and the edge list as launched. -/
theorem pre0_agg (c : Dev nD) : V1 m ρ c main_v13 = Spec.neighbourSum (m ((c : Thread nD τ).loc main_arg0)) (m ((c : Thread nD τ).loc main_arg1)) := by
  show StableHlo.after hostOps0 (W0 m ρ c) (Proc.devRef .tc main_v13) = _
  after_results_simp <;> rfl

/-- The two bias rows of the first convolution are its bias vectors reshaped. -/
theorem pre0_row1 (c : Dev nD) : V1 m ρ c main_v14 = shapeCast S1x128 (m ((c : Thread nD τ).loc main_arg4)) shapeCasts_S128_S1x128 := by
  show StableHlo.after hostOps0 (W0 m ρ c) (Proc.devRef .tc main_v14) = _
  after_results_simp <;> rfl
theorem pre0_row2 (c : Dev nD) : V1 m ρ c main_v15 = shapeCast S1x128 (m ((c : Thread nD τ).loc main_arg6)) shapeCasts_S128_S1x128 := by
  show StableHlo.after hostOps0 (W0 m ρ c) (Proc.devRef .tc main_v15) = _
  after_results_simp <;> rfl

/-- The edge list's source ids and target ids, computed once here. -/
theorem pre0_src (c : Dev nD) : W1 m ρ c (Proc.devRef .tc main_v1) = Spec.sources (m ((c : Thread nD τ).loc main_arg1)) := by
  show StableHlo.after hostOps0 (W0 m ρ c) (Proc.devRef .tc main_v1) = _
  after_results_simp <;> rfl
theorem pre0_dst (c : Dev nD) : W1 m ρ c (Proc.devRef .tc main_v3) = Spec.targets (m ((c : Thread nD τ).loc main_arg1)) := by
  show StableHlo.after hostOps0 (W0 m ρ c) (Proc.devRef .tc main_v3) = _
  after_results_simp <;> rfl

/-! ## Between the first launch and the second -/

/-- No operation here writes an argument, and the first launch wrote none of these. -/
theorem keep1_arg2 (c : Dev nD) : W3 m ρ c (Proc.devRef .tc main_arg2) = m ((c : Thread nD τ).loc main_arg2) := by
  show StableHlo.after hostOps1 (W2 m ρ c) (Proc.devRef .tc main_arg2) = _
  after_results_simp
  rw [W2_of_ne m ρ c main_arg2 (by decide)]
  exact keep0_arg2 m ρ c
theorem keep1_arg7 (c : Dev nD) : W3 m ρ c (Proc.devRef .tc main_arg7) = m ((c : Thread nD τ).loc main_arg7) := by
  show StableHlo.after hostOps1 (W2 m ρ c) (Proc.devRef .tc main_arg7) = _
  after_results_simp
  rw [W2_of_ne m ρ c main_arg7 (by decide)]
  exact keep0_arg7 m ρ c
theorem keep1_arg9 (c : Dev nD) : W3 m ρ c (Proc.devRef .tc main_arg9) = m ((c : Thread nD τ).loc main_arg9) := by
  show StableHlo.after hostOps1 (W2 m ρ c) (Proc.devRef .tc main_arg9) = _
  after_results_simp
  rw [W2_of_ne m ρ c main_arg9 (by decide)]
  exact keep0_arg9 m ρ c
theorem keep1_arg11 (c : Dev nD) : W3 m ρ c (Proc.devRef .tc main_arg11) = m ((c : Thread nD τ).loc main_arg11) := by
  show StableHlo.after hostOps1 (W2 m ρ c) (Proc.devRef .tc main_arg11) = _
  after_results_simp
  rw [W2_of_ne m ρ c main_arg11 (by decide)]
  exact keep0_arg11 m ρ c
theorem keep1_arg12 (c : Dev nD) : W3 m ρ c (Proc.devRef .tc main_arg12) = m ((c : Thread nD τ).loc main_arg12) := by
  show StableHlo.after hostOps1 (W2 m ρ c) (Proc.devRef .tc main_arg12) = _
  after_results_simp
  rw [W2_of_ne m ρ c main_arg12 (by decide)]
  exact keep0_arg12 m ρ c
theorem keep1_arg13 (c : Dev nD) : W3 m ρ c (Proc.devRef .tc main_arg13) = m ((c : Thread nD τ).loc main_arg13) := by
  show StableHlo.after hostOps1 (W2 m ρ c) (Proc.devRef .tc main_arg13) = _
  after_results_simp
  rw [W2_of_ne m ρ c main_arg13 (by decide)]
  exact keep0_arg13 m ρ c
theorem keep1_arg14 (c : Dev nD) : W3 m ρ c (Proc.devRef .tc main_arg14) = m ((c : Thread nD τ).loc main_arg14) := by
  show StableHlo.after hostOps1 (W2 m ρ c) (Proc.devRef .tc main_arg14) = _
  after_results_simp
  rw [W2_of_ne m ρ c main_arg14 (by decide)]
  exact keep0_arg14 m ρ c

/-- The second launch reads the first launch's output where the first launch left it. -/
theorem pre1_x (c : Dev nD) : V3 m ρ c main_v16 = W2 m ρ c (Proc.devRef .tc main_v16) := by
  show StableHlo.after hostOps1 (W2 m ρ c) (Proc.devRef .tc main_v16) = _
  after_results_simp <;> rfl

/-- The second neighbour sums are the reference's, of the first launch's output and the edge list as launched: the ids
    are the ones computed before the first launch, which the first launch did not touch. -/
theorem pre1_agg (c : Dev nD) :
    V3 m ρ c main_v26 = Spec.neighbourSum (W2 m ρ c (Proc.devRef .tc main_v16)) (m ((c : Thread nD τ).loc main_arg1)) := by
  show StableHlo.after hostOps1 (W2 m ρ c) (Proc.devRef .tc main_v26) = _
  after_results_simp
  rw [W2_of_ne m ρ c main_v1 (by decide), W2_of_ne m ρ c main_v3 (by decide), pre0_src, pre0_dst]
  rfl

/-- The two bias rows of the second convolution are its bias vectors reshaped. -/
theorem pre1_row1 (c : Dev nD) : V3 m ρ c main_v27 = shapeCast S1x128 (m ((c : Thread nD τ).loc main_arg8)) shapeCasts_S128_S1x128 := by
  show StableHlo.after hostOps1 (W2 m ρ c) (Proc.devRef .tc main_v27) = _
  after_results_simp
  rw [W2_of_ne m ρ c main_arg8 (by decide), keep0_arg8]
  rfl
theorem pre1_row2 (c : Dev nD) : V3 m ρ c main_v28 = shapeCast S1x128 (m ((c : Thread nD τ).loc main_arg10)) shapeCasts_S128_S1x128 := by
  show StableHlo.after hostOps1 (W2 m ρ c) (Proc.devRef .tc main_v28) = _
  after_results_simp
  rw [W2_of_ne m ρ c main_arg10 (by decide), keep0_arg10]
  rfl

/-! ## Between the second launch and the third -/

theorem keep2_arg11 (c : Dev nD) : W5 m ρ c (Proc.devRef .tc main_arg11) = m ((c : Thread nD τ).loc main_arg11) := by
  show StableHlo.after hostOps2 (W4 m ρ c) (Proc.devRef .tc main_arg11) = _
  after_results_simp
  rw [W4_of_ne m ρ c main_arg11 (by decide)]
  exact keep1_arg11 m ρ c
theorem keep2_arg13 (c : Dev nD) : W5 m ρ c (Proc.devRef .tc main_arg13) = m ((c : Thread nD τ).loc main_arg13) := by
  show StableHlo.after hostOps2 (W4 m ρ c) (Proc.devRef .tc main_arg13) = _
  after_results_simp
  rw [W4_of_ne m ρ c main_arg13 (by decide)]
  exact keep1_arg13 m ρ c

/-- The pooled rows are the reference's, of the second launch's output and the graph ids as launched. -/
theorem pre2_g (c : Dev nD) : V5 m ρ c main_v32 = Spec.pool (W4 m ρ c (Proc.devRef .tc main_v29)) (m ((c : Thread nD τ).loc main_arg2)) := by
  show StableHlo.after hostOps2 (W4 m ρ c) (Proc.devRef .tc main_v32) = _
  after_results_simp
  rw [W4_of_ne m ρ c main_arg2 (by decide), keep1_arg2]
  rfl

/-- The two bias rows of the read-out are its bias vectors reshaped. -/
theorem pre2_row1 (c : Dev nD) : V5 m ρ c main_v33 = shapeCast S1x128 (m ((c : Thread nD τ).loc main_arg12)) shapeCasts_S128_S1x128 := by
  show StableHlo.after hostOps2 (W4 m ρ c) (Proc.devRef .tc main_v33) = _
  after_results_simp
  rw [W4_of_ne m ρ c main_arg12 (by decide), keep1_arg12]
  rfl
theorem pre2_row2 (c : Dev nD) : V5 m ρ c main_v34 = shapeCast S1x1 (m ((c : Thread nD τ).loc main_arg14)) shapeCasts_S1_S1x1 := by
  show StableHlo.after hostOps2 (W4 m ρ c) (Proc.devRef .tc main_v34) = _
  after_results_simp
  rw [W4_of_ne m ρ c main_arg14 (by decide), keep1_arg14]
  rfl

end Cert.Gin.Glue

end
-- ==== Proof.KernelValue.lean ====
/-
  The idealized kernel program's result is the network of its arguments.

  Walking the boundaries' contents back from the end: the result buffer is the third launch's output array, which holds
  the read-out of the pooled rows; the pooled rows are the host's pooling of the second launch's output array, which holds
  the second convolution's dense stack of the first launch's output and its neighbour sums; and the first launch's output
  holds the first convolution's dense stack of the node features and their neighbour sums. Each launch's dense stack is
  the host's (one function of the same operands, layer by layer), and every host operation in between is the reference's own.
-/
import proofs.«148745_j63256278336098_1_alg».proof.Proof.Region0
import proofs.«148745_j63256278336098_1_alg».proof.Proof.Region1
import proofs.«148745_j63256278336098_1_alg».proof.Proof.Region2
import proofs.«148745_j63256278336098_1_alg».proof.Proof.HostGlue

set_option maxRecDepth 16384

noncomputable section

namespace Cert.Gin.KernelValue

open Idealize.ShloMosaic Idealize.ShloMosaic.TcCoe Idealize.ShloMosaic.ValueIdx Idealize.SL.Sem
open Cert.KernelIdeal Cert.KernelIdeal.Gen Cert.Gin Cert.LibDenseLayer

variable (m : (ℓ : Loc nD τ sig) → Buf (Elt Ideal) ℓ) (ρ : Dev nD → PrngReg)

/-- After the first launch its output array holds the node features after the first convolution. -/
theorem hidden1 (c : Dev nD) : W2 m ρ c (Proc.devRef .tc main_v16) = (Spec.hidden1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  have h := Region0.out (V1 m ρ) c (m ((c : Thread nD τ).loc main_arg4)) (m ((c : Thread nD τ).loc main_arg6))
    (fun k => (congrFun (Glue.pre0_row1 m ρ c) (ix2 (0 : Fin 1) k)).trans (shapeCast_a_1a_apply _ _ 0 k))
    (fun k => (congrFun (Glue.pre0_row2 m ρ c) (ix2 (0 : Fin 1) k)).trans (shapeCast_a_1a_apply _ _ 0 k))
  rw [Glue.pre0_x, Glue.pre0_agg, show V1 m ρ c main_arg3 = (m ((c : Thread nD τ).loc main_arg3)) from Glue.keep0_arg3 m ρ c,
    show V1 m ρ c main_arg5 = (m ((c : Thread nD τ).loc main_arg5)) from Glue.keep0_arg5 m ρ c] at h
  exact (W2_arr m ρ c 6).trans (h.trans (Spec.conv_eq _ _ _ _ _ _).symm)

/-- After the second launch its output array holds the node features after the second convolution. -/
theorem hidden2 (c : Dev nD) : W4 m ρ c (Proc.devRef .tc main_v29) = (Spec.conv (Spec.hidden1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (Spec.neighbourSum (Spec.hidden1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg1))) (m ((c : Thread nD τ).loc main_arg7)) (m ((c : Thread nD τ).loc main_arg8)) (m ((c : Thread nD τ).loc main_arg9)) (m ((c : Thread nD τ).loc main_arg10))) := by
  have h := Region1.out (V3 m ρ) c (m ((c : Thread nD τ).loc main_arg8)) (m ((c : Thread nD τ).loc main_arg10))
    (fun k => (congrFun (Glue.pre1_row1 m ρ c) (ix2 (0 : Fin 1) k)).trans (shapeCast_a_1a_apply _ _ 0 k))
    (fun k => (congrFun (Glue.pre1_row2 m ρ c) (ix2 (0 : Fin 1) k)).trans (shapeCast_a_1a_apply _ _ 0 k))
  rw [Glue.pre1_x, Glue.pre1_agg, show V3 m ρ c main_arg7 = (m ((c : Thread nD τ).loc main_arg7)) from Glue.keep1_arg7 m ρ c,
    show V3 m ρ c main_arg9 = (m ((c : Thread nD τ).loc main_arg9)) from Glue.keep1_arg9 m ρ c, hidden1] at h
  exact (W4_arr m ρ c 6).trans (h.trans (Spec.conv_eq _ _ _ _ _ _).symm)

/-- At the end the result buffer holds the network of the arguments as launched. -/
theorem result (c : Dev nD) :
    W6 m ρ c (Proc.devRef .tc main_v35)
      = Spec.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have h := Region2.out (V5 m ρ) c (m ((c : Thread nD τ).loc main_arg12)) (m ((c : Thread nD τ).loc main_arg14))
    (fun k => (congrFun (Glue.pre2_row1 m ρ c) (ix2 (0 : Fin 1) k)).trans (shapeCast_a_1a_apply _ _ 0 k))
    (fun k => (congrFun (Glue.pre2_row2 m ρ c) (ix2 (0 : Fin 1) k)).trans (shapeCast_a_1a_apply _ _ 0 k))
  rw [Glue.pre2_g, show V5 m ρ c main_arg11 = (m ((c : Thread nD τ).loc main_arg11)) from Glue.keep2_arg11 m ρ c,
    show V5 m ρ c main_arg13 = (m ((c : Thread nD τ).loc main_arg13)) from Glue.keep2_arg13 m ρ c, hidden2] at h
  exact (W6_arr m ρ c 5).trans (h.trans (Spec.head_eq _ _ _ _ _).symm)

end Cert.Gin.KernelValue

end
-- ==== Proof.lean ====
/-
  A two-convolution graph-isomorphism network with a pooled read-out: three kernel launches among the host's gathers and
  scatter-adds, against the jnp reference. Equal results on the extended reals.

  Both programs compute, from node features x [100000, 128], an edge list of 1600000 (source, target) pairs and a graph id
  per node,
      h₁ = relu(relu((x + N(x)) · W₁ + b₁) · W₂ + b₂),   h₂ = relu(relu((h₁ + N(h₁)) · W₃ + b₃) · W₄ + b₄),
      out = relu(P(h₂) · W₅ + b₅) · W₆ + b₆,
  where N(h) is the sum of each node's in-neighbours' rows (a gather at the sources, a scatter-add at the targets) and P the
  sum of the node rows per graph (a scatter-add at the graph ids). The kernel leaves N and P to the same host operations the
  reference uses and runs each dense stack in a kernel: the two convolutions' stacks 2000 rows at a time, the read-out in
  one block, each product accumulated from zero over operands passed through a change of float format, each bias laid
  out as a row. On the extended reals a change of format is the identity, a product accumulated from zero is the host's
  product, and entry (r, c) of a dense layer reads row r of its operand alone, so a block of rows of a stack is the stack
  of that block of rows and the blocks tile the array. No sum is reordered and no factor moved: the two results are equal
  for every extended-real input, and the precondition is never opened.
  The idealization rewrote no operation, so that conjunct is trivial; the two kernel programs' frames are generated, and the
  reference's is its generated run with the result dropped.
-/
import proofs.«148745_j63256278336098_1_alg».proof.Defs
import proofs.«148745_j63256278336098_1_alg».proof.Proof.Gen.Kernel
import proofs.«148745_j63256278336098_1_alg».proof.Proof.Gen.Kernel.Skeleton
import proofs.«148745_j63256278336098_1_alg».proof.Proof.Gen.Kernel.Launch
import proofs.«148745_j63256278336098_1_alg».proof.Proof.Gen.Kernel.Points
import proofs.«148745_j63256278336098_1_alg».proof.Proof.Gen.Kernel.Frame
import proofs.«148745_j63256278336098_1_alg».proof.Proof.Gen.KernelIdeal
import proofs.«148745_j63256278336098_1_alg».proof.Proof.Gen.KernelIdeal.Skeleton
import proofs.«148745_j63256278336098_1_alg».proof.Proof.Gen.KernelIdeal.Launch
import proofs.«148745_j63256278336098_1_alg».proof.Proof.Gen.KernelIdeal.Points
import proofs.«148745_j63256278336098_1_alg».proof.Proof.Gen.KernelIdeal.Frame
import proofs.«148745_j63256278336098_1_alg».proof.Proof.Gen.ReferenceIdeal
import proofs.«148745_j63256278336098_1_alg».proof.Proof.Gen.ReferenceIdeal.Run
import proofs.«148745_j63256278336098_1_alg».proof.Proof.Gen.Pre_finite_inputs
import proofs.«148745_j63256278336098_1_alg».proof.Proof.GinSpec
import proofs.«148745_j63256278336098_1_alg».proof.Proof.KernelRun
import proofs.«148745_j63256278336098_1_alg».proof.Proof.KernelValue
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments alone: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the network of those arguments. -/
theorem algebraic : Cert.algebraic_KernelIdeal_ReferenceIdeal := by
  intro m ρ m' ρ' _ hagree
  refine ⟨fun c => Cert.Gin.Spec.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.Gin.KernelValue.result m ρ c), (h c).2⟩) (Cert.KernelIdeal.RunValue.run m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14⟩ := hagree c
    rw [Cert.Gin.Spec.reference_eq, a0, a1, a2, a3, a4, a5, a6, a7, a8, a9, a10, a11, a12, a13, a14]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
